-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x2048x64 : Shape := ⟨4, ![8, 8, 2048, 64]⟩
abbrev S_ : Shape := ⟨0, ![]⟩

class Facts : Prop where
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  h_S_ : 0 < S_.numel

variable [Facts]

def fn {F : FTy → Type} [FloatOps F] (main_arg0 : FVec F S8x8x2048x64 .f32) (main_arg1 : FVec F S8x8x2048x64 .f32) (main_arg2 : FVec F S8x8x2048x64 .f32) : IVec S_ 1 :=
  let main_v0 : FVec F S8x8x2048x64 .f32 := Host.absf main_arg0
  let main_cst : FVec F S_ .f32 := constant S_ .f32 0x7F800000#32
  let main_v1 : FVec F S8x8x2048x64 .f32 := broadcastInDim S8x8x2048x64 ![] bcast_S_S8x8x2048x64 main_cst
  let main_v2 : IVec S8x8x2048x64 1 := cmpf .olt main_v0 main_v1
  let main_c : IVec S_ 1 := constantI S_ 1 1#1
  let main_v3 : IVec S_ 1 := (fun x v => Host.reduce IntOp.andi x v reducesTo_S8x8x2048x64_S_d0_1_2_3 h_S_) main_v2 main_c
  let main_v4 : FVec F S8x8x2048x64 .f32 := Host.absf main_arg1
  let main_cst_0 : FVec F S_ .f32 := constant S_ .f32 0x7F800000#32
  let main_v5 : FVec F S8x8x2048x64 .f32 := broadcastInDim S8x8x2048x64 ![] bcast_S_S8x8x2048x64 main_cst_0
  let main_v6 : IVec S8x8x2048x64 1 := cmpf .olt main_v4 main_v5
  let main_c_1 : IVec S_ 1 := constantI S_ 1 1#1
  let main_v7 : IVec S_ 1 := (fun x v => Host.reduce IntOp.andi x v reducesTo_S8x8x2048x64_S_d0_1_2_3 h_S_) main_v6 main_c_1
  let main_v8 : IVec S_ 1 := andi main_v3 main_v7
  let main_v9 : FVec F S8x8x2048x64 .f32 := Host.absf main_arg2
  let main_cst_2 : FVec F S_ .f32 := constant S_ .f32 0x7F800000#32
  let main_v10 : FVec F S8x8x2048x64 .f32 := broadcastInDim S8x8x2048x64 ![] bcast_S_S8x8x2048x64 main_cst_2
  let main_v11 : IVec S8x8x2048x64 1 := cmpf .olt main_v9 main_v10
  let main_c_3 : IVec S_ 1 := constantI S_ 1 1#1
  let main_v12 : IVec S_ 1 := (fun x v => Host.reduce IntOp.andi x v reducesTo_S8x8x2048x64_S_d0_1_2_3 h_S_) main_v11 main_c_3
  let main_v13 : IVec S_ 1 := andi main_v8 main_v12
  main_v13
-- ==== Kernel.lean ====
abbrev S8x8x2048x64 : Shape := ⟨4, ![8, 8, 2048, 64]⟩
abbrev S8x8x2048x2048 : Shape := ⟨4, ![8, 8, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x8x2048x64, .f32⟩
  | .hbm, ⟨4, _⟩ => ⟨S8x8x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S8x8x2048x64.size a
  hwx0_0 : ∀ i : grid0.Coords, EltTy.bits .f32 = 32 ∨ (Rect.block (s := S8x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S8x8x2048x64.size a
  hwx0_1 : ∀ i : grid0.Coords, EltTy.bits .f32 = 32 ∨ (Rect.block (s := S8x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S8x8x2048x64.size a
  hwx0_2 : ∀ i : grid0.Coords, EltTy.bits .f32 = 32 ∨ (Rect.block (s := S8x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S8x8x2048x64.size a
  hwx0_3 : ∀ i : grid0.Coords, EltTy.bits .f32 = 32 ∨ (Rect.block (s := S8x8x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S8x8x2048x2048.size a
  hwx0_4 : ∀ i : grid0.Coords, EltTy.bits .f32 = 32 ∨ (Rect.block (s := S8x8x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8x2048x64 : Shape := ⟨4, ![8, 8, 2048, 64]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x8x2048x64, .f32⟩
  | .hbm, ⟨1, _⟩ => ⟨S8x8x2048x64, .f32⟩
  | .hbm, ⟨2, _⟩ => ⟨S8x8x2048x64, .f32⟩
  | .hbm, ⟨3, _⟩ => ⟨S8x8x2048x2048, .f32⟩
  | .hbm, ⟨4, _⟩ => ⟨S_, .f32⟩
  | .hbm, ⟨5, _⟩ => ⟨S8x8x2048x2048, .f32⟩
  | .hbm, ⟨6, _⟩ => ⟨S8x8x2048x2048, .f32⟩
  | .hbm, ⟨7, _⟩ => ⟨S_, .f32⟩
  | .hbm, ⟨8, _⟩ => ⟨S8x8x2048, .f32⟩
  | .hbm, ⟨9, _⟩ => ⟨S_, .f32⟩
  | .hbm, ⟨10, _⟩ => ⟨S8x8x2048, .f32⟩
  | .hbm, ⟨11, _⟩ => ⟨S8x8x2048, .f32⟩
  | .hbm, ⟨12, _⟩ => ⟨S8x8x2048x1, .f32⟩
  | .hbm, ⟨13, _⟩ => ⟨S8x8x2048x2048, .f32⟩
  | .hbm, ⟨14, _⟩ => ⟨S8x8x2048x2048, .f32⟩
  | .hbm, ⟨15, _⟩ => ⟨S8x8x2048x2048, .f32⟩
  | .hbm, ⟨16, _⟩ => ⟨S_, .f32⟩
  | .hbm, ⟨17, _⟩ => ⟨S8x8x2048, .f32⟩
  | .hbm, ⟨18, _⟩ => ⟨S8x8x2048x1, .f32⟩
  | .hbm, ⟨19, _⟩ => ⟨S8x8x2048x2048, .f32⟩
  | .hbm, ⟨20, _⟩ => ⟨S8x8x2048x2048, .f32⟩
  | .hbm, ⟨21, _⟩ => ⟨S8x8x2048x64, .f32⟩
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x8x2048x2048 : S_.BroadcastsInDim S8x8x2048x2048 (![] : Fin 0 → Fin S8x8x2048x2048.rank)
  reducesTo_S8x8x2048x2048_S8x8x2048_d3 : S8x8x2048x2048.ReducesTo [3] S8x8x2048
  h_S_ : 0 < S_.numel
  bcast_S_S8x8x2048 : S_.BroadcastsInDim S8x8x2048 (![] : Fin 0 → Fin S8x8x2048.rank)
  bcast_S8x8x2048_S8x8x2048x1_0_1_2 : S8x8x2048.BroadcastsInDim S8x8x2048x1 (![0, 1, 2] : Fin 3 → Fin S8x8x2048x1.rank)
  bcast_S8x8x2048x1_S8x8x2048x2048_0_1_2_3 : S8x8x2048x1.BroadcastsInDim S8x8x2048x2048 (![0, 1, 2, 3] : Fin 4 → Fin S8x8x2048x2048.rank)
  dot_S8x8x2048x64_S8x8x2048x64_S8x8x2048x2048_3_3_2_2_01_01_wf : DotDims.WF S8x8x2048x64 S8x8x2048x64 S8x8x2048x2048 [3] [3] [2] [2] [0, 1] [0, 1]
  dot_S8x8x2048x2048_S8x8x2048x64_S8x8x2048x64_3_2_2_3_01_01_wf : DotDims.WF S8x8x2048x2048 S8x8x2048x64 S8x8x2048x64 [3] [2] [2] [3] [0, 1] [0, 1]

variable [Facts₀]

def dot_S8x8x2048x64_S8x8x2048x64_S8x8x2048x2048_3_3_2_2_01_01 : DotDims S8x8x2048x64 S8x8x2048x64 S8x8x2048x2048 where
  lhsContracting := [3]
  rhsContracting := [3]
  lhsNonContracting := [2]
  rhsNonContracting := [2]
  lhsBatch := [0, 1]
  rhsBatch := [0, 1]
  wf := dot_S8x8x2048x64_S8x8x2048x64_S8x8x2048x2048_3_3_2_2_01_01_wf
def dot_S8x8x2048x2048_S8x8x2048x64_S8x8x2048x64_3_2_2_3_01_01 : DotDims S8x8x2048x2048 S8x8x2048x64 S8x8x2048x64 where
  lhsContracting := [3]
  rhsContracting := [2]
  lhsNonContracting := [2]
  rhsNonContracting := [3]
  lhsBatch := [0, 1]
  rhsBatch := [0, 1]
  wf := dot_S8x8x2048x2048_S8x8x2048x64_S8x8x2048x64_3_2_2_3_01_01_wf

class Facts : Prop extends Facts₀ where

variable [Facts]
-- ==== Proof.AttnSpec.lean ====
/- Scaled dot-product attention with an explicit weight output, as functions of the three argument arrays at the
   extended reals. For a batch b, a head h and a query row l the SCORE against key row m is
   (Σ_d Q[b,h,l,d] · K[b,h,m,d]) · c, c the word of 1/64; the WEIGHT row is the softmax of the score row, taken
   stably: exp (s_m − max_k s_k) / Σ_k exp (s_k − max_k s_k), the maximum folded from −∞; and the RESULT is
   Σ_m weight[b,h,l,m] · V[b,h,m,d]. The two constants the programs spell differently are joined here: dividing by
   the word of 64 is multiplying by the word of 1/64, on every extended real, and a maximum with −∞ is the other
   operand. -/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of Q, K, V and of the result. -/
abbrev SQ : Shape := ⟨4, ![8, 8, 2048, 64]⟩
/-- The shape of the weights. -/
abbrev SA : Shape := ⟨4, ![8, 8, 2048, 2048]⟩

/-- The kernel's scale: the word of 1/64. -/
abbrev scale : EReal := Ideal.ofBits .f32 0x3C800000#32
/-- The value both maxima are folded from: the word of −∞. -/
abbrev negInf : EReal := Ideal.ofBits .f32 0xFF800000#32

/-- The word 0xFF800000 denotes −∞, the least extended real. -/
theorem negInf_eq_bot : negInf = ⊥ := by
  simp [negInf, Ideal.ofBits, Ideal.ieee]

/-- The word 0x42800000 denotes 64. -/
theorem ofBits_64 : Ideal.ofBits .f32 0x42800000#32 = ((64 : ℝ) : EReal) := by
  simp [Ideal.ofBits, Ideal.ieee, -EReal.coe_mul]; norm_num

/-- The word 0x3C800000 denotes 1/64. -/
theorem scale_eq : scale = ((1 / 64 : ℝ) : EReal) := by
  simp [scale, Ideal.ofBits, Ideal.ieee, -EReal.coe_mul]; norm_num

/-- Dividing by 64 is multiplying by 1/64, at the infinities too. -/
theorem div_64 (x : EReal) : Ideal.div x (Ideal.ofBits .f32 0x42800000#32) = x * scale := by
  rw [ofBits_64, scale_eq, Ideal.div_coe (by norm_num)]

/-- A maximum with −∞ is the other operand. -/
theorem max_negInf (x : EReal) : max negInf x = x := by
  rw [negInf_eq_bot]; exact max_bot_left x

/-- The stable softmax of a row of 2048 scores, at column `m`. -/
def softmaxRow (f : Fin 2048 → EReal) (m : Fin 2048) : EReal :=
  Ideal.div (Ideal.exp (f m - Finset.univ.fold max negInf f))
    (∑ k : Fin 2048, Ideal.exp (f k - Finset.univ.fold max negInf f))

/-- The scaled score of query row `l` against key row `m` in batch `b`, head `h`. -/
def score (Q K : SQ.Idx → EReal) (b h : Fin 8) (l m : Fin 2048) : EReal :=
  (∑ d : Fin 64, Q (ix4 b h l d) * K (ix4 b h m d)) * scale

/-- The attention weights. -/
def att (Q K : SQ.Idx → EReal) : SA.Idx → EReal := fun i =>
  softmaxRow (score Q K (i 0) (i 1) (i 2)) (i 3)

/-- The attention result: the weights applied to V. -/
def res (Q K V : SQ.Idx → EReal) : SQ.Idx → EReal := fun i =>
  ∑ m : Fin 2048, softmaxRow (score Q K (i 0) (i 1) (i 2)) m * V (ix4 (i 0) (i 1) m (i 3))

end Cert.Attn

end
-- ==== Proof.AttnRef.lean ====
/- The reference program's two results are the attention weights and the attention result of `Cert.Attn`: its
   operations are read one at a time, at an index given by its coordinates (b, h, l, m). The score is the contraction
   over d divided by 64, which is the product with 1/64; the row maximum is the fold of max from −∞ over the key axis,
   and the extra maximum with −∞ the reference takes changes nothing; the denominator is 0 plus the sum of the
   exponentials over the key axis. -/
import proofs.«174793_j4028679324109_2_alg».proof.Proof.Gen.ReferenceIdeal.Read
import proofs.«174793_j4028679324109_2_alg».proof.Proof.AttnSpec

noncomputable section

namespace Cert.Attn.Ref

open Cert.ReferenceIdeal Cert.ReferenceIdeal.Gen Cert.ReferenceIdeal.Read Cert.Attn
open Idealize.ShloMosaic Idealize.ShloMosaic.ValueIdx

variable (x0 x1 x2 : (⟨S8x8x2048x64, .f32⟩ : BufTy).Contents (Elt Ideal))

/-- The left factor of the first contraction at (b, h, l, m), d: Q at (b, h, l, d). -/
theorem lidx0 (b h : Fin 8) (l m : Fin 2048) (k : Fin 64) : lidx_main_v0 (ix4 b h l m) k = ix4 b h l k :=
  funext fun a => Fin.ext (by match a with | ⟨0, _⟩ => rfl | ⟨1, _⟩ => rfl | ⟨2, _⟩ => rfl | ⟨3, _⟩ => rfl)

/-- The right factor of the first contraction at (b, h, l, m), d: K at (b, h, m, d). -/
theorem ridx0 (b h : Fin 8) (l m : Fin 2048) (k : Fin 64) : ridx_main_v0 (ix4 b h l m) k = ix4 b h m k :=
  funext fun a => Fin.ext (by match a with | ⟨0, _⟩ => rfl | ⟨1, _⟩ => rfl | ⟨2, _⟩ => rfl | ⟨3, _⟩ => rfl)

/-- The left factor of the second contraction at (b, h, l, d), m: the weight at (b, h, l, m). -/
theorem lidx14 (b h : Fin 8) (l : Fin 2048) (d : Fin 64) (k : Fin 2048) : lidx_main_v14 (ix4 b h l d) k = ix4 b h l k :=
  funext fun a => Fin.ext (by match a with | ⟨0, _⟩ => rfl | ⟨1, _⟩ => rfl | ⟨2, _⟩ => rfl | ⟨3, _⟩ => rfl)

/-- The right factor of the second contraction at (b, h, l, d), m: V at (b, h, m, d). -/
theorem ridx14 (b h : Fin 8) (l : Fin 2048) (d : Fin 64) (k : Fin 2048) : ridx_main_v14 (ix4 b h l d) k = ix4 b h k d :=
  funext fun a => Fin.ext (by match a with | ⟨0, _⟩ => rfl | ⟨1, _⟩ => rfl | ⟨2, _⟩ => rfl | ⟨3, _⟩ => rfl)

/-- The quotient by 64 of the first contraction is the scaled score. -/
theorem v2_apply (b h : Fin 8) (l m : Fin 2048) :
    val_main_v2 (F := Ideal) x0 x1 (ix4 b h l m) = score x0 x1 b h l m := by
  rw [val_main_v2_apply, val_main_v0_apply, val_main_v1_apply, val_main_cst_apply]
  show Ideal.div _ (Ideal.ofBits .f32 0x42800000#32) = _
  rw [div_64]
  unfold score
  refine congrArg (· * scale) (Finset.sum_congr rfl fun k _ => ?_)
  exact congrArg₂ (· * ·) (congrArg x0 (lidx0 b h l m k)) (congrArg x1 (ridx0 b h l m k))

/-- The key axis is the last axis of the weights' shape. -/
theorem hred : S8x8x2048x2048.Reduces [3] S8x8x2048 := by decide

/-- A row index with key coordinate `k` put back is (b, h, l, k). -/
theorem lift_eq (b h : Fin 8) (l : Fin 2048) (k : Fin 2048) : hred.lift (ix3 b h l) k = ix4 b h l k :=
  funext fun a => Fin.ext (by match a with | ⟨0, _⟩ => rfl | ⟨1, _⟩ => rfl | ⟨2, _⟩ => rfl | ⟨3, _⟩ => rfl)

/-- The reference's row maximum: the fold of max from −∞ over the score row. -/
theorem v3_apply (b h : Fin 8) (l : Fin 2048) :
    val_main_v3 (F := Ideal) x0 x1 (ix3 b h l) = Finset.univ.fold max negInf (score x0 x1 b h l) := by
  unfold val_main_v3
  refine (Host.reduce_eq_fold_single FloatOps.maximumf _ _ reducesTo_S8x8x2048x2048_S8x8x2048_d3 hred h_S_ (ix3 b h l)).trans ?_
  have hf : (val_main_v2 (F := Ideal) x0 x1 ∘ hred.lift (ix3 b h l)) = score x0 x1 b h l :=
    funext fun (k : Fin 2048) => (congrArg (val_main_v2 (F := Ideal) x0 x1) (lift_eq b h l k)).trans (v2_apply x0 x1 b h l k)
  rw [hf]
  rfl

/-- The maximum with −∞ the reference takes next leaves the row maximum as it is. -/
theorem v5_apply (b h : Fin 8) (l : Fin 2048) :
    val_main_v5 (F := Ideal) x0 x1 (ix3 b h l) = Finset.univ.fold max negInf (score x0 x1 b h l) := by
  rw [val_main_v5_apply, val_main_v4_apply, val_main_cst_1_apply, v3_apply]
  exact max_negInf _

/-- The row maximum broadcast back along the key axis. -/
theorem v7_apply (b h : Fin 8) (l m : Fin 2048) :
    val_main_v7 (F := Ideal) x0 x1 (ix4 b h l m) = Finset.univ.fold max negInf (score x0 x1 b h l) := by
  rw [val_main_v7_apply, val_main_v6_apply]
  exact (congrArg (val_main_v5 (F := Ideal) x0 x1)
    (funext fun a => Fin.ext (by match a with | ⟨0, _⟩ => rfl | ⟨1, _⟩ => rfl | ⟨2, _⟩ => rfl))).trans (v5_apply x0 x1 b h l)

/-- The exponential of the score less its row's maximum. -/
theorem v9_apply (b h : Fin 8) (l m : Fin 2048) :
    val_main_v9 (F := Ideal) x0 x1 (ix4 b h l m)
      = Ideal.exp (score x0 x1 b h l m - Finset.univ.fold max negInf (score x0 x1 b h l)) := by
  rw [val_main_v9_apply, val_main_v8_apply, v2_apply, v7_apply]
  rfl

/-- The denominator: the sum of the row's exponentials. -/
theorem v10_apply (b h : Fin 8) (l : Fin 2048) :
    val_main_v10 (F := Ideal) x0 x1 (ix3 b h l)
      = ∑ k : Fin 2048, Ideal.exp (score x0 x1 b h l k - Finset.univ.fold max negInf (score x0 x1 b h l)) := by
  rw [val_main_v10_apply]
  show Ideal.ofBits .f32 0x00000000#32 + _ = _
  rw [Ideal.ofBits_zero_f32, zero_add]
  refine Finset.sum_congr rfl fun k _ => ?_
  exact (congrArg (val_main_v9 (F := Ideal) x0 x1)
    (funext fun a => Fin.ext (by match a with | ⟨0, _⟩ => rfl | ⟨1, _⟩ => rfl | ⟨2, _⟩ => rfl | ⟨3, _⟩ => rfl))).trans (v9_apply x0 x1 b h l k)

/-- The denominator broadcast back along the key axis. -/
theorem v12_apply (b h : Fin 8) (l m : Fin 2048) :
    val_main_v12 (F := Ideal) x0 x1 (ix4 b h l m)
      = ∑ k : Fin 2048, Ideal.exp (score x0 x1 b h l k - Finset.univ.fold max negInf (score x0 x1 b h l)) := by
  rw [val_main_v12_apply, val_main_v11_apply]
  exact (congrArg (val_main_v10 (F := Ideal) x0 x1)
    (funext fun a => Fin.ext (by match a with | ⟨0, _⟩ => rfl | ⟨1, _⟩ => rfl | ⟨2, _⟩ => rfl))).trans (v10_apply x0 x1 b h l)

/-- The reference's second result at (b, h, l, m) is the softmax of the score row at m. -/
theorem v13_ix (b h : Fin 8) (l m : Fin 2048) :
    val_main_v13 (F := Ideal) x0 x1 (ix4 b h l m) = softmaxRow (score x0 x1 b h l) m := by
  rw [val_main_v13_apply, v9_apply, v12_apply]
  rfl

/-- The reference's first result at (b, h, l, d) is the weight row applied to V's column. -/
theorem v14_ix (b h : Fin 8) (l : Fin 2048) (d : Fin 64) :
    val_main_v14 (F := Ideal) x0 x1 x2 (ix4 b h l d) = ∑ m : Fin 2048, softmaxRow (score x0 x1 b h l) m * x2 (ix4 b h m d) := by
  rw [val_main_v14_apply]
  refine Finset.sum_congr rfl fun k _ => ?_
  exact congrArg₂ (· * ·) ((congrArg (val_main_v13 (F := Ideal) x0 x1) (lidx14 b h l d k)).trans (v13_ix x0 x1 b h l k))
    (congrArg x2 (ridx14 b h l d k))

/-- The reference's second result is the weights. -/
theorem att_eq : val_main_v13 (F := Ideal) x0 x1 = att x0 x1 := funext fun i => by
  obtain ⟨b, h, l, m, rfl⟩ : ∃ (b h : Fin 8) (l m : Fin 2048), i = ix4 b h l m := ⟨i 0, i 1, i 2, i 3, eq_ix4 i⟩
  exact v13_ix x0 x1 b h l m

/-- The reference's first result is the weights applied to V. -/
theorem res_eq : val_main_v14 (F := Ideal) x0 x1 x2 = res x0 x1 x2 := funext fun i => by
  obtain ⟨b, h, l, d, rfl⟩ : ∃ (b h : Fin 8) (l : Fin 2048) (d : Fin 64), i = ix4 b h l d := ⟨i 0, i 1, i 2, i 3, eq_ix4 i⟩
  exact v14_ix x0 x1 x2 b h l d

end Cert.Attn.Ref

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.AttnBody.lean ====
/- What the kernel body computes from one query block (512 rows) and the whole key and value blocks (2048 rows) of one
   batch and head, read at an index. The first matrix product contracts the feature axis d of both operands (the key
   block enters transposed); the product with the scale, the row maximum, the exponentials, their row sum and the
   quotient are the stable softmax of each score row; the second matrix product applies the weight row to the value
   block's columns. A change of float format is the identity here, and a doubly unit-led block is its trailing matrix. -/
import proofs.«174793_j4028679324109_2_alg».proof.Proof.Gen.KernelIdeal.Skeleton
import proofs.«174793_j4028679324109_2_alg».proof.Proof.AttnSpec
import proofs.«174793_j4028679324109_2_alg».proof.Proof.LibLayout
import Idealize.ShloMosaic.Lib.Pipeline.Value
import Idealize.ShloMosaic.Lib.ValueIdx
import Idealize.ShloMosaic.PureOps.Ideal.Laws

noncomputable section

namespace Cert.Attn.Body

open Cert.KernelIdeal Cert.KernelIdeal.Gen Cert.Attn Cert.LibLayout
open Idealize.ShloMosaic Idealize.ShloMosaic.ValueIdx

/-- The dimension numbers of q · kᵀ: both operands contract their feature axis. -/
abbrev D1 : DotDims S512x64 S2048x64 S512x2048 := dot_S512x64_S2048x64_S512x2048_1_1_0_0_n_n
/-- The dimension numbers of weights · v: the weights' key axis against v's row axis. -/
abbrev D2 : DotDims S512x2048 S2048x64 S512x64 := dot_S512x2048_S2048x64_S512x64_1_0_0_1_n_n

/-! ## The two matrix products at an index -/

theorem D1_lhs0 (i : S512x2048.Idx) (q : D1.contr.Idx) : (D1.lhsIdx i q 0).val = (i 0).val := by
  unfold DotDims.lhsIdx
  rw [dif_neg (show ¬(0 : Fin S512x64.rank) ∈ D1.lhsBatch by decide), dif_pos (show (0 : Fin S512x64.rank) ∈ D1.lhsNonContracting by decide)]
  rfl
theorem D1_lhs1 (i : S512x2048.Idx) (q : D1.contr.Idx) : (D1.lhsIdx i q 1).val = (q ⟨0, by decide⟩).val :=
  D1.lhsIdx_val_of_single rfl i q
theorem D1_rhs0 (i : S512x2048.Idx) (q : D1.contr.Idx) : (D1.rhsIdx i q 0).val = (i 1).val := by
  unfold DotDims.rhsIdx
  rw [dif_neg (show ¬(0 : Fin S2048x64.rank) ∈ D1.rhsBatch by decide), dif_pos (show (0 : Fin S2048x64.rank) ∈ D1.rhsNonContracting by decide)]
  rfl
theorem D1_rhs1 (i : S512x2048.Idx) (q : D1.contr.Idx) : (D1.rhsIdx i q 1).val = (q ⟨0, by decide⟩).val :=
  D1.rhsIdx_val_of_single rfl i q

/-- q · kᵀ into a zero accumulator, at (t, s): the sum over the feature axis of q at (t, d) times k at (s, d). -/
theorem qk_apply (a : FVec Ideal S512x64 .bf16) (b : FVec Ideal S2048x64 .bf16) (t : Fin 512) (s : Fin 2048) :
    matmul D1 none a b (constant S512x2048 .f32 0x00000000#32) (ix2 t s) = ∑ d : Fin 64, a (ix2 t d) * b (ix2 s d) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 t s) ((contrEquiv1 D1 64 rfl rfl).symm k) = ix2 t k := funext fun c => Fin.ext (by
    match c with
    | ⟨0, _⟩ => exact D1_lhs0 _ _
    | ⟨1, _⟩ => exact (D1_lhs1 _ _).trans hk)
  have er : D1.rhsIdx (ix2 t s) ((contrEquiv1 D1 64 rfl rfl).symm k) = ix2 s k := funext fun c => Fin.ext (by
    match c with
    | ⟨0, _⟩ => exact D1_rhs0 _ _
    | ⟨1, _⟩ => exact (D1_rhs1 _ _).trans hk)
  rw [el, er]

theorem D2_lhs0 (i : S512x64.Idx) (q : D2.contr.Idx) : (D2.lhsIdx i q 0).val = (i 0).val := by
  unfold DotDims.lhsIdx
  rw [dif_neg (show ¬(0 : Fin S512x2048.rank) ∈ D2.lhsBatch by decide), dif_pos (show (0 : Fin S512x2048.rank) ∈ D2.lhsNonContracting by decide)]
  rfl
theorem D2_lhs1 (i : S512x64.Idx) (q : D2.contr.Idx) : (D2.lhsIdx i q 1).val = (q ⟨0, by decide⟩).val :=
  D2.lhsIdx_val_of_single rfl i q
theorem D2_rhs0 (i : S512x64.Idx) (q : D2.contr.Idx) : (D2.rhsIdx i q 0).val = (q ⟨0, by decide⟩).val :=
  D2.rhsIdx_val_of_single rfl i q
theorem D2_rhs1 (i : S512x64.Idx) (q : D2.contr.Idx) : (D2.rhsIdx i q 1).val = (i 1).val := by
  unfold DotDims.rhsIdx
  rw [dif_neg (show ¬(1 : Fin S2048x64.rank) ∈ D2.rhsBatch by decide), dif_pos (show (1 : Fin S2048x64.rank) ∈ D2.rhsNonContracting by decide)]
  rfl

/-- weights · v into a zero accumulator, at (t, d): the sum over the key axis of the weight at (t, s) times v at (s, d). -/
theorem pv_apply (a : FVec Ideal S512x2048 .bf16) (b : FVec Ideal S2048x64 .bf16) (t : Fin 512) (d : Fin 64) :
    matmul D2 none a b (constant S512x64 .f32 0x00000000#32) (ix2 t d) = ∑ s : Fin 2048, a (ix2 t s) * b (ix2 s d) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 t d) ((contrEquiv1 D2 2048 rfl rfl).symm k) = ix2 t k := funext fun c => Fin.ext (by
    match c with
    | ⟨0, _⟩ => exact D2_lhs0 _ _
    | ⟨1, _⟩ => exact (D2_lhs1 _ _).trans hk)
  have er : D2.rhsIdx (ix2 t d) ((contrEquiv1 D2 2048 rfl rfl).symm k) = ix2 k d := funext fun c => Fin.ext (by
    match c with
    | ⟨0, _⟩ => exact (D2_rhs0 _ _).trans hk
    | ⟨1, _⟩ => exact D2_rhs1 _ _)
  rw [el, er]

/-! ## The body's stages as vector terms -/

/-- The scaled scores of a query block against a key block. -/
def scores (P0 : Vec Ideal S1x1x512x64 .f32) (P1 : Vec Ideal S1x1x2048x64 .f32) : FVec Ideal S512x2048 .f32 :=
  mulf (matmul D1 none (truncf .bf16 (shapeCast S512x64 P0 shapeCasts_S1x1x512x64_S512x64) bitsLt_bf16_f32)
      (truncf .bf16 (shapeCast S2048x64 P1 shapeCasts_S1x1x2048x64_S2048x64) bitsLt_bf16_f32) (constant S512x2048 .f32 0x00000000#32))
    (broadcast S512x2048 (Scalar.ofBits .f32 0x3C800000#32))

/-- Each row's maximum, from −∞, broadcast back along the row. -/
def rowMaxB (x : FVec Ideal S512x2048 .f32) : FVec Ideal S512x2048 .f32 :=
  broadcastTo S512x2048 (shapeCast S512x1 (multiReduction .maximumf [1] S512 x 0xFF800000#32 reduces_S512x2048_S512 (.inl rfl) rfl)
    shapeCasts_S512_S512x1) broadcasts_S512x1_S512x2048

/-- The exponential of each entry less its row's maximum. -/
def expB (x : FVec Ideal S512x2048 .f32) : FVec Ideal S512x2048 .f32 := exp (subf x (rowMaxB x))

/-- Each row's sum, from 0, broadcast back along the row. -/
def rowSumB (y : FVec Ideal S512x2048 .f32) : FVec Ideal S512x2048 .f32 :=
  broadcastTo S512x2048 (shapeCast S512x1 (multiReduction .add [1] S512 y 0x00000000#32 reduces_S512x2048_S512 (.inl rfl) rfl)
    shapeCasts_S512_S512x1) broadcasts_S512x1_S512x2048

/-- The stable softmax of each row. -/
def softB (x : FVec Ideal S512x2048 .f32) : FVec Ideal S512x2048 .f32 := divf (expB x) (rowSumB (expB x))

/-- The body's weight payload is the softmax of the scaled scores. -/
theorem pay1_eq (P0 : Vec Ideal S1x1x512x64 .f32) (P1 : Vec Ideal S1x1x2048x64 .f32) :
    k0_pay1 P0 P1 = softB (scores P0 P1) := rfl

/-! ## The stages at an index -/

/-- The score of row `t` of a query block against row `s` of a key block. -/
def blkScore (P0 : Vec Ideal S1x1x512x64 .f32) (P1 : Vec Ideal S1x1x2048x64 .f32) (t : Fin 512) (s : Fin 2048) : EReal :=
  (∑ d : Fin 64, P0 (ix4 (0 : Fin 1) (0 : Fin 1) t d) * P1 (ix4 (0 : Fin 1) (0 : Fin 1) s d)) * scale

theorem scores_apply (P0 : Vec Ideal S1x1x512x64 .f32) (P1 : Vec Ideal S1x1x2048x64 .f32) (t : Fin 512) (s : Fin 2048) :
    scores P0 P1 (ix2 t s) = blkScore P0 P1 t s := by
  unfold scores blkScore
  rw [mulf_apply, broadcast_apply, qk_apply]
  refine congrArg (· * scale) (Finset.sum_congr rfl fun d _ => ?_)
  exact congrArg₂ (· * ·) (shapeCast_11ab_ab_apply P0 _ t d) (shapeCast_11ab_ab_apply P1 _ s d)

/-- A row index of a [512, 2048] value with column `k` put back is (t, k). -/
theorem lift_row (h : S512x2048.Reduces [1] S512) (t : Fin 512) (k : Fin 2048) : h.lift (ix1 t) k = ix2 t k :=
  funext fun c => Fin.ext (by match c with | ⟨0, _⟩ => rfl | ⟨1, _⟩ => rfl)

theorem rowMaxB_apply (x : FVec Ideal S512x2048 .f32) (t : Fin 512) (s : Fin 2048) :
    rowMaxB x (ix2 t s) = Finset.univ.fold max negInf (fun k : Fin 2048 => x (ix2 t k)) := by
  unfold rowMaxB
  refine (broadcastTo_a1_ab_apply _ _ t s).trans ?_
  refine (shapeCast_a_a1_apply _ _ t).trans ?_
  refine (Ideal.multiReduction_maximumf_single x _ reduces_S512x2048_S512 _ _ (ix1 t)).trans ?_
  have hf : (x ∘ reduces_S512x2048_S512.lift (ix1 t)) = fun k : Fin 2048 => x (ix2 t k) :=
    funext fun (k : Fin 2048) => congrArg x (lift_row _ t k)
  rw [hf]
  rfl

theorem expB_apply (x : FVec Ideal S512x2048 .f32) (t : Fin 512) (s : Fin 2048) :
    expB x (ix2 t s) = Ideal.exp (x (ix2 t s) - Finset.univ.fold max negInf (fun k : Fin 2048 => x (ix2 t k))) := by
  unfold expB
  show Ideal.exp (x (ix2 t s) - rowMaxB x (ix2 t s)) = _
  rw [rowMaxB_apply]

theorem rowSumB_apply (y : FVec Ideal S512x2048 .f32) (t : Fin 512) (s : Fin 2048) :
    rowSumB y (ix2 t s) = ∑ k : Fin 2048, y (ix2 t k) := by
  unfold rowSumB
  refine (broadcastTo_a1_ab_apply _ _ t s).trans ?_
  refine (shapeCast_a_a1_apply _ _ t).trans ?_
  refine (Ideal.multiReduction_add_single y _ reduces_S512x2048_S512 _ _ (ix1 t)).trans ?_
  exact Finset.sum_congr rfl fun (k : Fin 2048) _ => congrArg y (lift_row _ t k)

/-- The softmax stage at (t, s) is the softmax of row t at column s. -/
theorem softB_apply (x : FVec Ideal S512x2048 .f32) (t : Fin 512) (s : Fin 2048) :
    softB x (ix2 t s) = softmaxRow (fun k : Fin 2048 => x (ix2 t k)) s := by
  unfold softB softmaxRow
  show Ideal.div (expB x (ix2 t s)) (rowSumB (expB x) (ix2 t s)) = _
  rw [rowSumB_apply, expB_apply]
  exact congrArg (Ideal.div _) (Finset.sum_congr rfl fun k _ => expB_apply x t k)

/-- The weight payload at (t, s). -/
theorem pay1_apply (P0 : Vec Ideal S1x1x512x64 .f32) (P1 : Vec Ideal S1x1x2048x64 .f32) (t : Fin 512) (s : Fin 2048) :
    k0_pay1 P0 P1 (ix2 t s) = softmaxRow (blkScore P0 P1 t) s := by
  rw [pay1_eq, softB_apply]
  exact congrArg (fun f => softmaxRow f s) (funext fun k => scores_apply P0 P1 t k)

/-- The stored weight block at (0, 0, t, s). -/
theorem pay2_apply (P0 : Vec Ideal S1x1x512x64 .f32) (P1 : Vec Ideal S1x1x2048x64 .f32) (t : Fin 512) (s : Fin 2048) :
    k0_pay2 P0 P1 (ix4 (0 : Fin 1) (0 : Fin 1) t s) = softmaxRow (blkScore P0 P1 t) s := by
  show shapeCast S1x1x512x2048 (k0_pay1 P0 P1) shapeCasts_S512x2048_S1x1x512x2048 (ix4 (0 : Fin 1) (0 : Fin 1) t s) = _
  exact (shapeCast_ab_11ab_apply (k0_pay1 P0 P1) _ t s).trans (pay1_apply P0 P1 t s)

/-- The stored result block at (0, 0, t, d): the weight row applied to column d of the value block. -/
theorem pay3_apply (P0 : Vec Ideal S1x1x512x64 .f32) (P1 P2 : Vec Ideal S1x1x2048x64 .f32) (t : Fin 512) (d : Fin 64) :
    k0_pay3 P0 P1 P2 (ix4 (0 : Fin 1) (0 : Fin 1) t d)
      = ∑ s : Fin 2048, softmaxRow (blkScore P0 P1 t) s * P2 (ix4 (0 : Fin 1) (0 : Fin 1) s d) := by
  show shapeCast S1x1x512x64 (matmul D2 none (truncf .bf16 (k0_pay1 P0 P1) bitsLt_bf16_f32)
      (truncf .bf16 (shapeCast S2048x64 P2 shapeCasts_S1x1x2048x64_S2048x64) bitsLt_bf16_f32) (constant S512x64 .f32 0x00000000#32))
    shapeCasts_S512x64_S1x1x512x64 (ix4 (0 : Fin 1) (0 : Fin 1) t d) = _
  refine (shapeCast_ab_11ab_apply _ _ t d).trans ?_
  rw [pv_apply]
  refine Finset.sum_congr rfl fun s _ => ?_
  exact congrArg₂ (· * ·) (pay1_apply P0 P1 t s) (shapeCast_11ab_ab_apply P2 _ s d)

end Cert.Attn.Body

end
-- ==== Proof.AttnArray.lean ====
/- From blocks to arrays. Grid point t = (b, h, q) — b = t / 32, h = t / 4 mod 8, q = t mod 4 — works on query rows
   512 q … 512 q + 511 of batch b and head h, against ALL key and value rows of that batch and head, and writes the
   same rows of the two results. So what the point writes back is the block, at its position, of the attention
   weights and of the attention result taken over the whole argument arrays; the 256 blocks tile each result, and the
   two result arrays end holding those two functions. -/
import proofs.«174793_j4028679324109_2_alg».proof.Proof.Gen.KernelIdeal.Value
import proofs.«174793_j4028679324109_2_alg».proof.Proof.AttnBody
import Idealize.ShloMosaic.Lib.Pipeline.Value

noncomputable section

namespace Cert.Attn.Arr

open Cert.KernelIdeal Cert.KernelIdeal.Gen Cert.KernelIdeal.Value Cert.Attn Cert.Attn.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The five index maps over the grid: the point's batch and head on the two leading axes of every window, its query
    tile on the row axis of the query window and of both results, block 0 on the row axis of the key and value
    windows (their block is the whole matrix), block 0 on the last axis of all. -/
theorem idx_facts : ∀ t : Fin cfg0.N,
    (win0_0.index t (0 : Fin 4) = t.val / 32 ∧ win0_0.index t (1 : Fin 4) = t.val / 4 % 8 ∧ win0_0.index t (2 : Fin 4) = t.val % 4 ∧ win0_0.index t (3 : Fin 4) = 0)
    ∧ (win0_1.index t (0 : Fin 4) = t.val / 32 ∧ win0_1.index t (1 : Fin 4) = t.val / 4 % 8 ∧ win0_1.index t (2 : Fin 4) = 0 ∧ win0_1.index t (3 : Fin 4) = 0)
    ∧ (win0_2.index t (0 : Fin 4) = t.val / 32 ∧ win0_2.index t (1 : Fin 4) = t.val / 4 % 8 ∧ win0_2.index t (2 : Fin 4) = 0 ∧ win0_2.index t (3 : Fin 4) = 0)
    ∧ (win0_3.index t (0 : Fin 4) = t.val / 32 ∧ win0_3.index t (1 : Fin 4) = t.val / 4 % 8 ∧ win0_3.index t (2 : Fin 4) = t.val % 4 ∧ win0_3.index t (3 : Fin 4) = 0)
    ∧ (win0_4.index t (0 : Fin 4) = t.val / 32 ∧ win0_4.index t (1 : Fin 4) = t.val / 4 % 8 ∧ win0_4.index t (2 : Fin 4) = t.val % 4 ∧ win0_4.index t (3 : Fin 4) = 0) :=
  (by decide +kernel : ∀ t : Fin grid0.N, _)

/-! ## The input blocks as parts of the argument arrays -/

/-- The query block at point t: rows 512 q … of Q in batch b, head h. -/
theorem iblk0_apply (c : Dev nD) (t : Fin cfg0.N) (x : S1x1x512x64.Idx) (k : S8x8x2048x64.Idx)
    (hk0 : (k 0).val = t.val / 32) (hk1 : (k 1).val = t.val / 4 % 8) (hk2 : (k 2).val = t.val % 4 * 512 + (x 2).val)
    (hk3 : (k 3).val = (x 3).val) :
    (iblk m c 0 t : Vec Ideal S1x1x512x64 .f32) x = (V m c main_arg0 : S8x8x2048x64.Idx → EReal) k := by
  obtain ⟨⟨a0, a1, a2, a3⟩, -⟩ := idx_facts t
  unfold iblk
  rw [View.read_apply]
  show V m c main_arg0 _ = V m c main_arg0 _
  congr 1
  funext a
  apply Fin.ext
  have hx0 : (x 0).val < 1 := (x 0).isLt
  have hx1 : (x 1).val < 1 := (x 1).isLt
  match a with
  | ⟨0, _⟩ => show win0_0.index t (0 : Fin 4) * 1 + 1 * (x 0).val = (k 0).val; omega
  | ⟨1, _⟩ => show win0_0.index t (1 : Fin 4) * 1 + 1 * (x 1).val = (k 1).val; omega
  | ⟨2, _⟩ => show win0_0.index t (2 : Fin 4) * 512 + 1 * (x 2).val = (k 2).val; omega
  | ⟨3, _⟩ => show win0_0.index t (3 : Fin 4) * 64 + 1 * (x 3).val = (k 3).val; omega

/-- The key block at point t: all of K in batch b, head h. -/
theorem iblk1_apply (c : Dev nD) (t : Fin cfg0.N) (x : S1x1x2048x64.Idx) (k : S8x8x2048x64.Idx)
    (hk0 : (k 0).val = t.val / 32) (hk1 : (k 1).val = t.val / 4 % 8) (hk2 : (k 2).val = (x 2).val)
    (hk3 : (k 3).val = (x 3).val) :
    (iblk m c 1 t : Vec Ideal S1x1x2048x64 .f32) x = (V m c main_arg1 : S8x8x2048x64.Idx → EReal) k := by
  obtain ⟨-, ⟨a0, a1, a2, a3⟩, -⟩ := idx_facts t
  unfold iblk
  rw [View.read_apply]
  show V m c main_arg1 _ = V m c main_arg1 _
  congr 1
  funext a
  apply Fin.ext
  have hx0 : (x 0).val < 1 := (x 0).isLt
  have hx1 : (x 1).val < 1 := (x 1).isLt
  match a with
  | ⟨0, _⟩ => show win0_1.index t (0 : Fin 4) * 1 + 1 * (x 0).val = (k 0).val; omega
  | ⟨1, _⟩ => show win0_1.index t (1 : Fin 4) * 1 + 1 * (x 1).val = (k 1).val; omega
  | ⟨2, _⟩ => show win0_1.index t (2 : Fin 4) * 2048 + 1 * (x 2).val = (k 2).val; omega
  | ⟨3, _⟩ => show win0_1.index t (3 : Fin 4) * 64 + 1 * (x 3).val = (k 3).val; omega

/-- The value block at point t: all of V in batch b, head h. -/
theorem iblk2_apply (c : Dev nD) (t : Fin cfg0.N) (x : S1x1x2048x64.Idx) (k : S8x8x2048x64.Idx)
    (hk0 : (k 0).val = t.val / 32) (hk1 : (k 1).val = t.val / 4 % 8) (hk2 : (k 2).val = (x 2).val)
    (hk3 : (k 3).val = (x 3).val) :
    (iblk m c 2 t : Vec Ideal S1x1x2048x64 .f32) x = (V m c main_arg2 : S8x8x2048x64.Idx → EReal) k := by
  obtain ⟨-, -, ⟨a0, a1, a2, a3⟩, -⟩ := idx_facts t
  unfold iblk
  rw [View.read_apply]
  show V m c main_arg2 _ = V m c main_arg2 _
  congr 1
  funext a
  apply Fin.ext
  have hx0 : (x 0).val < 1 := (x 0).isLt
  have hx1 : (x 1).val < 1 := (x 1).isLt
  match a with
  | ⟨0, _⟩ => show win0_2.index t (0 : Fin 4) * 1 + 1 * (x 0).val = (k 0).val; omega
  | ⟨1, _⟩ => show win0_2.index t (1 : Fin 4) * 1 + 1 * (x 1).val = (k 1).val; omega
  | ⟨2, _⟩ => show win0_2.index t (2 : Fin 4) * 2048 + 1 * (x 2).val = (k 2).val; omega
  | ⟨3, _⟩ => show win0_2.index t (3 : Fin 4) * 64 + 1 * (x 3).val = (k 3).val; omega

/-! ## One point's two payloads as blocks of the whole-array functions -/

/-- If a query block holds rows l0 … l0 + 511 of Q and a key block all rows of K, in batch b and head h, the block
    scores are the array scores of those rows. -/
theorem blkScore_eq (P0 : Vec Ideal S1x1x512x64 .f32) (P1 : Vec Ideal S1x1x2048x64 .f32) (Q K : SQ.Idx → EReal)
    (b h : Fin 8) (l0 : Nat) (hl0 : l0 + 512 ≤ 2048)
    (hP0 : ∀ (r : Fin 512) (d : Fin 64), P0 (ix4 (0 : Fin 1) (0 : Fin 1) r d) = Q (ix4 b h (⟨l0 + r.val, by have := r.isLt; omega⟩ : Fin 2048) d))
    (hP1 : ∀ (s : Fin 2048) (d : Fin 64), P1 (ix4 (0 : Fin 1) (0 : Fin 1) s d) = K (ix4 b h s d))
    (r : Fin 512) :
    blkScore P0 P1 r = score Q K b h (⟨l0 + r.val, by have := r.isLt; omega⟩ : Fin 2048) := by
  funext s
  unfold blkScore score
  refine congrArg (· * scale) (Finset.sum_congr rfl fun d _ => ?_)
  rw [hP0 r d, hP1 s d]

/-- … so the stored weight block is the block of the attention weights, -/
theorem weights_at (P0 : Vec Ideal S1x1x512x64 .f32) (P1 : Vec Ideal S1x1x2048x64 .f32) (Q K : SQ.Idx → EReal)
    (b h : Fin 8) (l0 : Nat) (hl0 : l0 + 512 ≤ 2048)
    (hP0 : ∀ (r : Fin 512) (d : Fin 64), P0 (ix4 (0 : Fin 1) (0 : Fin 1) r d) = Q (ix4 b h (⟨l0 + r.val, by have := r.isLt; omega⟩ : Fin 2048) d))
    (hP1 : ∀ (s : Fin 2048) (d : Fin 64), P1 (ix4 (0 : Fin 1) (0 : Fin 1) s d) = K (ix4 b h s d))
    (r : Fin 512) (s : Fin 2048) :
    k0_pay2 P0 P1 (ix4 (0 : Fin 1) (0 : Fin 1) r s) = att Q K (ix4 b h (⟨l0 + r.val, by have := r.isLt; omega⟩ : Fin 2048) s) := by
  rw [pay2_apply, blkScore_eq P0 P1 Q K b h l0 hl0 hP0 hP1 r]
  rfl

/-- … and, the value block holding all rows of V, the stored result block is the block of the attention result. -/
theorem result_at (P0 : Vec Ideal S1x1x512x64 .f32) (P1 P2 : Vec Ideal S1x1x2048x64 .f32) (Q K V : SQ.Idx → EReal)
    (b h : Fin 8) (l0 : Nat) (hl0 : l0 + 512 ≤ 2048)
    (hP0 : ∀ (r : Fin 512) (d : Fin 64), P0 (ix4 (0 : Fin 1) (0 : Fin 1) r d) = Q (ix4 b h (⟨l0 + r.val, by have := r.isLt; omega⟩ : Fin 2048) d))
    (hP1 : ∀ (s : Fin 2048) (d : Fin 64), P1 (ix4 (0 : Fin 1) (0 : Fin 1) s d) = K (ix4 b h s d))
    (hP2 : ∀ (s : Fin 2048) (d : Fin 64), P2 (ix4 (0 : Fin 1) (0 : Fin 1) s d) = V (ix4 b h s d))
    (r : Fin 512) (d : Fin 64) :
    k0_pay3 P0 P1 P2 (ix4 (0 : Fin 1) (0 : Fin 1) r d) = res Q K V (ix4 b h (⟨l0 + r.val, by have := r.isLt; omega⟩ : Fin 2048) d) := by
  rw [pay3_apply, blkScore_eq P0 P1 Q K b h l0 hl0 hP0 hP1 r]
  unfold res
  exact Finset.sum_congr rfl fun s _ => by rw [hP2 s d]

/-! ## What each point writes back -/

/-- Point t writes back block t of the attention weights of the argument arrays. -/
theorem flushed4_eq (c : Dev nD) (t : Fin cfg0.N) :
    (dats m 0 c).flushed 4 t = ((cfg0.win 4).blk t).view.read (Elt Ideal) (att (V m c main_arg0) (V m c main_arg1)) := by
  have hN : cfg0.N = 256 := N_0
  have ht : t.val < cfg0.N := t.isLt
  rw [Value.flushed4]
  unfold out0_4
  rw [View.canon_unit_zero hz4]
  simp only [View.ld_unit_zero (S := S1x1x512x64) hz4, View.ld_unit_zero (S := S1x1x2048x64) hz4]
  obtain ⟨-, -, -, -, ⟨e0, e1, e2, e3⟩⟩ := idx_facts t
  refine funext fun (j : S1x1x512x2048.Idx) => ?_
  show k0_pay2 (iblk m c 0 t) (iblk m c 1 t) j = att (V m c main_arg0) (V m c main_arg1) (((cfg0.win 4).blk t).view.emb j)
  obtain ⟨j0, j1, r, s, rfl⟩ : ∃ (j0 j1 : Fin 1) (r : Fin 512) (s : Fin 2048), j = ix4 j0 j1 r s := ⟨j 0, j 1, j 2, j 3, eq_ix4 j⟩
  obtain rfl : j0 = 0 := Subsingleton.elim _ _
  obtain rfl : j1 = 0 := Subsingleton.elim _ _
  refine (weights_at (iblk m c 0 t) (iblk m c 1 t) (V m c main_arg0) (V m c main_arg1)
    (⟨t.val / 32, by omega⟩ : Fin 8) (⟨t.val / 4 % 8, by omega⟩ : Fin 8) (t.val % 4 * 512) (by omega)
    (fun r d => iblk0_apply m c t _ _ rfl rfl rfl rfl) (fun s d => iblk1_apply m c t _ _ rfl rfl rfl rfl) r s).trans ?_
  refine congrArg (att (V m c main_arg0) (V m c main_arg1)) (funext fun a => Fin.ext ?_)
  have hr := r.isLt
  have hs := s.isLt
  match a with
  | ⟨0, _⟩ => show t.val / 32 = win0_4.index t (0 : Fin 4) * 1 + 1 * 0; omega
  | ⟨1, _⟩ => show t.val / 4 % 8 = win0_4.index t (1 : Fin 4) * 1 + 1 * 0; omega
  | ⟨2, _⟩ => show t.val % 4 * 512 + r.val = win0_4.index t (2 : Fin 4) * 512 + 1 * r.val; omega
  | ⟨3, _⟩ => show s.val = win0_4.index t (3 : Fin 4) * 2048 + 1 * s.val; omega

/-- Point t writes back block t of the attention result of the argument arrays. -/
theorem flushed3_eq (c : Dev nD) (t : Fin cfg0.N) :
    (dats m 0 c).flushed 3 t
      = ((cfg0.win 3).blk t).view.read (Elt Ideal) (res (V m c main_arg0) (V m c main_arg1) (V m c main_arg2)) := by
  have hN : cfg0.N = 256 := N_0
  have ht : t.val < cfg0.N := t.isLt
  rw [Value.flushed3]
  unfold out0_3
  rw [View.canon_unit_zero hz4]
  simp only [View.ld_unit_zero (S := S1x1x512x64) hz4, View.ld_unit_zero (S := S1x1x2048x64) hz4]
  obtain ⟨-, -, -, ⟨e0, e1, e2, e3⟩, -⟩ := idx_facts t
  refine funext fun (j : S1x1x512x64.Idx) => ?_
  show k0_pay3 (iblk m c 0 t) (iblk m c 1 t) (iblk m c 2 t) j
    = res (V m c main_arg0) (V m c main_arg1) (V m c main_arg2) (((cfg0.win 3).blk t).view.emb j)
  obtain ⟨j0, j1, r, d, rfl⟩ : ∃ (j0 j1 : Fin 1) (r : Fin 512) (d : Fin 64), j = ix4 j0 j1 r d := ⟨j 0, j 1, j 2, j 3, eq_ix4 j⟩
  obtain rfl : j0 = 0 := Subsingleton.elim _ _
  obtain rfl : j1 = 0 := Subsingleton.elim _ _
  refine (result_at (iblk m c 0 t) (iblk m c 1 t) (iblk m c 2 t) (V m c main_arg0) (V m c main_arg1) (V m c main_arg2)
    (⟨t.val / 32, by omega⟩ : Fin 8) (⟨t.val / 4 % 8, by omega⟩ : Fin 8) (t.val % 4 * 512) (by omega)
    (fun r d => iblk0_apply m c t _ _ rfl rfl rfl rfl) (fun s d => iblk1_apply m c t _ _ rfl rfl rfl rfl)
    (fun s d => iblk2_apply m c t _ _ rfl rfl rfl rfl) r d).trans ?_
  refine congrArg (res (V m c main_arg0) (V m c main_arg1) (V m c main_arg2)) (funext fun a => Fin.ext ?_)
  have hr := r.isLt
  have hd := d.isLt
  match a with
  | ⟨0, _⟩ => show t.val / 32 = win0_3.index t (0 : Fin 4) * 1 + 1 * 0; omega
  | ⟨1, _⟩ => show t.val / 4 % 8 = win0_3.index t (1 : Fin 4) * 1 + 1 * 0; omega
  | ⟨2, _⟩ => show t.val % 4 * 512 + r.val = win0_3.index t (2 : Fin 4) * 512 + 1 * r.val; omega
  | ⟨3, _⟩ => show d.val = win0_3.index t (3 : Fin 4) * 64 + 1 * d.val; omega

/-! ## The blocks tile the two results -/

/-- An index of the weights is in point t's block iff each coordinate is in the block's range on its axis. -/
theorem mem_blk4 (t : Fin cfg0.N) (i : S8x8x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

/-- An index of the result is in point t's block iff each coordinate is in the block's range on its axis. -/
theorem mem_blk3 (t : Fin cfg0.N) (i : S8x8x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Entry (b, h, l, ·) of the weights is written by the point (b, h, l / 512). -/
theorem cover4 (i : S8x8x2048x2048.Idx) :
    ∃ t : Fin cfg0.N, (cfg0.win 4).flush t = true ∧ i ∈ ((cfg0.win 4).blk t).view.set := by
  have hN : cfg0.N = 256 := N_0
  have h0 : (i 0).val < 8 := (i 0).isLt
  have h1 : (i 1).val < 8 := (i 1).isLt
  have h2 : (i 2).val < 2048 := (i 2).isLt
  have h3 : (i 3).val < 2048 := (i 3).isLt
  refine ⟨⟨(i 0).val * 32 + (i 1).val * 4 + (i 2).val / 512, by omega⟩, flush0_4 _, ?_⟩
  rw [mem_blk4]
  obtain ⟨-, -, -, -, ⟨e0, e1, e2, e3⟩⟩ := idx_facts ⟨(i 0).val * 32 + (i 1).val * 4 + (i 2).val / 512, by omega⟩
  simp only at e0 e1 e2 e3
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 1 ≤ (i 1).val ∧ (i 1).val < win0_4.index _ (1 : Fin 4) * 1 + 1; omega
  | ⟨2, _⟩ => show win0_4.index _ (2 : Fin 4) * 512 ≤ (i 2).val ∧ (i 2).val < win0_4.index _ (2 : Fin 4) * 512 + 512; omega
  | ⟨3, _⟩ => show win0_4.index _ (3 : Fin 4) * 2048 ≤ (i 3).val ∧ (i 3).val < win0_4.index _ (3 : Fin 4) * 2048 + 2048; omega

/-- Entry (b, h, l, ·) of the result is written by the point (b, h, l / 512). -/
theorem cover3 (i : S8x8x2048x64.Idx) :
    ∃ t : Fin cfg0.N, (cfg0.win 3).flush t = true ∧ i ∈ ((cfg0.win 3).blk t).view.set := by
  have hN : cfg0.N = 256 := N_0
  have h0 : (i 0).val < 8 := (i 0).isLt
  have h1 : (i 1).val < 8 := (i 1).isLt
  have h2 : (i 2).val < 2048 := (i 2).isLt
  have h3 : (i 3).val < 64 := (i 3).isLt
  refine ⟨⟨(i 0).val * 32 + (i 1).val * 4 + (i 2).val / 512, by omega⟩, flush0_3 _, ?_⟩
  rw [mem_blk3]
  obtain ⟨-, -, -, ⟨e0, e1, e2, e3⟩, -⟩ := idx_facts ⟨(i 0).val * 32 + (i 1).val * 4 + (i 2).val / 512, by omega⟩
  simp only at e0 e1 e2 e3
  intro a
  match a with
  | ⟨0, _⟩ => show win0_3.index _ (0 : Fin 4) * 1 ≤ (i 0).val ∧ (i 0).val < win0_3.index _ (0 : Fin 4) * 1 + 1; omega
  | ⟨1, _⟩ => show win0_3.index _ (1 : Fin 4) * 1 ≤ (i 1).val ∧ (i 1).val < win0_3.index _ (1 : Fin 4) * 1 + 1; omega
  | ⟨2, _⟩ => show win0_3.index _ (2 : Fin 4) * 512 ≤ (i 2).val ∧ (i 2).val < win0_3.index _ (2 : Fin 4) * 512 + 512; omega
  | ⟨3, _⟩ => show win0_3.index _ (3 : Fin 4) * 64 ≤ (i 3).val ∧ (i 3).val < win0_3.index _ (3 : Fin 4) * 64 + 64; omega

/-! ## The two result arrays after the run -/

/-- The weights' array ends holding the attention weights of the argument arrays. -/
theorem final4 (c : Dev nD) : (dats m 0 c).arrAt 4 cfg0.N
    = att (m ((c : Thread nD τ).loc main_arg0)) (m ((c : Thread nD τ).loc main_arg1)) :=
  (dats m 0 c).arrAt_eq_of_cover 4 (att (V m c main_arg0) (V m c main_arg1)) (fun t _ => flushed4_eq m c t) cover4

/-- The result's array ends holding the attention result of the argument arrays. -/
theorem final3 (c : Dev nD) : (dats m 0 c).arrAt 3 cfg0.N
    = res (m ((c : Thread nD τ).loc main_arg0)) (m ((c : Thread nD τ).loc main_arg1)) (m ((c : Thread nD τ).loc main_arg2)) :=
  (dats m 0 c).arrAt_eq_of_cover 3 (res (V m c main_arg0) (V m c main_arg1) (V m c main_arg2)) (fun t _ => flushed3_eq m c t) cover3

/-- The kernel's run: the two results at the attention result and the attention weights of the arguments as launched,
    the arguments unchanged. -/
theorem run : θ_run defs (onTc (τ := τ) (main (F := Ideal))) ⟨m, fun _ => 0, ρ⟩ fun r => ∀ c : Dev nD,
      r.2.mem ((c : Thread nD τ).loc main_v0_0)
        = res (m ((c : Thread nD τ).loc main_arg0)) (m ((c : Thread nD τ).loc main_arg1)) (m ((c : Thread nD τ).loc main_arg2))
      ∧ r.2.mem ((c : Thread nD τ).loc main_v0_1) = att (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.Attn.Arr

end
-- ==== Proof.lean ====
/- Scaled dot-product attention with an explicit weight output: for Q, K, V of shape [8, 8, 2048, 64] the weights are
   softmax over m of (Σ_d Q[b,h,l,d] · K[b,h,m,d]) / 64 and the result is Σ_m weights[b,h,l,m] · V[b,h,m,d].
   The kernel works on 512 query rows of one batch and head at a time against all 2048 key and value rows, multiplies
   the scores by 1/64 where the reference divides by 64, and takes the same stable softmax (row maximum from −∞,
   exponentials, their sum, the quotient); the reference takes one more maximum with −∞, which changes nothing.
   On the extended reals the two programs are therefore one function of the arguments, entry by entry: the weights'
   and the result's definitions are in Proof/AttnSpec.lean, the reference read against them in Proof/AttnRef.lean,
   the kernel body at an index in Proof/AttnBody.lean, and the blocks assembled into the arrays in
   Proof/AttnArray.lean. No law used needs finite inputs: 1/64 and 64 are exact, and every other step is the same
   operation on both sides. -/
import proofs.«174793_j4028679324109_2_alg».proof.Defs
import proofs.«174793_j4028679324109_2_alg».proof.Proof.Gen.Kernel
import proofs.«174793_j4028679324109_2_alg».proof.Proof.Gen.Kernel.Skeleton
import proofs.«174793_j4028679324109_2_alg».proof.Proof.Gen.Kernel.Launch
import proofs.«174793_j4028679324109_2_alg».proof.Proof.Gen.Kernel.Points
import proofs.«174793_j4028679324109_2_alg».proof.Proof.Gen.Kernel.Frame
import proofs.«174793_j4028679324109_2_alg».proof.Proof.Gen.KernelIdeal
import proofs.«174793_j4028679324109_2_alg».proof.Proof.Gen.KernelIdeal.Skeleton
import proofs.«174793_j4028679324109_2_alg».proof.Proof.Gen.KernelIdeal.Launch
import proofs.«174793_j4028679324109_2_alg».proof.Proof.Gen.KernelIdeal.Points
import proofs.«174793_j4028679324109_2_alg».proof.Proof.Gen.KernelIdeal.Frame
import proofs.«174793_j4028679324109_2_alg».proof.Proof.Gen.KernelIdeal.Value
import proofs.«174793_j4028679324109_2_alg».proof.Proof.Gen.ReferenceIdeal
import proofs.«174793_j4028679324109_2_alg».proof.Proof.Gen.ReferenceIdeal.Run
import proofs.«174793_j4028679324109_2_alg».proof.Proof.Gen.ReferenceIdeal.Read
import proofs.«174793_j4028679324109_2_alg».proof.Proof.Gen.Pre_finite_inputs
import proofs.«174793_j4028679324109_2_alg».proof.Proof.AttnRef
import proofs.«174793_j4028679324109_2_alg».proof.Proof.AttnArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the extended reals: no operation was rewritten. -/
theorem preserves : Cert.preserves_Kernel_KernelIdeal := trivial

/-- From arguments that agree, both programs end with the attention result and the attention weights of those
    arguments. -/
theorem algebraic : Cert.algebraic_KernelIdeal_ReferenceIdeal := by
  intro m ρ m' ρ' _ hagree
  refine ⟨_, _, Cert.Attn.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.Attn.Ref.res_eq, (hagree c).1, (hagree c).2.1, (hagree c).2.2]
  · rw [Cert.ReferenceIdeal.Read.val_main_v13_eq, Cert.Attn.Ref.att_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
